-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128x40 : Shape := ⟨2, ![128, 40]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x40 : S_.BroadcastsInDim S128x40 (![] : Fin 0 → Fin S128x40.rank)
  reducesTo_S128x40_S_d0_1 : S128x40.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x64 .f32) (main_arg1 : FVec F S64x128 .f32) (main_arg2 : FVec F S128x40 .f32) (main_arg3 : FVec F S1600000 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x40 .f32 := Host.absf main_arg2
  let main_cst_2 : FVec F S_ .f32 := constant S_ .f32 0x7F800000#32
  let main_v10 : FVec F S128x40 .f32 := broadcastInDim S128x40 ![] bcast_S_S128x40 main_cst_2
  let main_v11 : IVec S128x40 1 := cmpf .olt main_v9 main_v10
  let main_c_3 : IVec S_ 1 := constantI S_ 1 1#1
  let main_v12 : IVec S_ 1 := (fun x v => Host.reduce IntOp.andi x v reducesTo_S128x40_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x64 : Shape := ⟨2, ![100000, 64]⟩
abbrev S64x128 : Shape := ⟨2, ![64, 128]⟩
abbrev S128x40 : Shape := ⟨2, ![128, 40]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x40 : Shape := ⟨2, ![100000, 40]⟩
abbrev S5000x64 : Shape := ⟨2, ![5000, 64]⟩
abbrev S5000x40 : Shape := ⟨2, ![5000, 40]⟩
abbrev S5000x128 : Shape := ⟨2, ![5000, 128]⟩
abbrev S1600000x40 : Shape := ⟨2, ![1600000, 40]⟩
abbrev S5000 : Shape := ⟨1, ![5000]⟩
abbrev S5000x1 : Shape := ⟨2, ![5000, 1]⟩

abbrev nBuf : Space → Nat
  | .hbm => 40
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128x40, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x40, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x40, .f32⟩
  | .hbm, ⟨32, _⟩ => ⟨S1600000x1, .f32⟩
  | .hbm, ⟨33, _⟩ => ⟨S1600000x40, .f32⟩
  | .hbm, ⟨34, _⟩ => ⟨S1600000x40, .f32⟩
  | .hbm, ⟨35, _⟩ => ⟨S_, .f32⟩
  | .hbm, ⟨36, _⟩ => ⟨S100000x40, .f32⟩
  | .hbm, ⟨37, _⟩ => ⟨S1600000x1, .i32⟩
  | .hbm, ⟨38, _⟩ => ⟨S100000x40, .f32⟩
  | .hbm, ⟨39, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128x40, .f32⟩
  | .local _ .vmem, ⟨4, _⟩ => ⟨S5000x40, .f32⟩
  | .local _ .vmem, ⟨5, _⟩ => ⟨S5000x40, .f32⟩
  | .local _ .vmem, ⟨6, _⟩ => ⟨S5000x40, .f32⟩
  | .local _ .vmem, ⟨7, _⟩ => ⟨S5000x40, .f32⟩
  | .local _ .vmem, ⟨8, _⟩ => ⟨S5000x40, .f32⟩
  | .local _ .vmem, ⟨9, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x40.size a ≤ S128x40.size a
  hwx0_2 : ∀ i : grid0.Coords, EltTy.bits .f32 = 32 ∨ (Rect.block (s := S128x40) S128x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x40.size a ≤ S100000x40.size a
  hwx0_3 : ∀ i : grid0.Coords, EltTy.bits .f32 = 32 ∨ (Rect.block (s := S100000x40) S5000x40.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x40.size a ≤ S100000x40.size a
  hwx1_1 : ∀ i : grid1.Coords, EltTy.bits .f32 = 32 ∨ (Rect.block (s := S100000x40) S5000x40.size (cc1_transform_1 i) (hinb1_1 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x40.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128x40 : Shape := ⟨2, ![128, 40]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S100000x40 : Shape := ⟨2, ![100000, 40]⟩
abbrev S1600000x40 : Shape := ⟨2, ![1600000, 40]⟩
abbrev S100000 : Shape := ⟨1, ![100000]⟩
abbrev S100000x1 : Shape := ⟨2, ![100000, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128x40, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S1600000x1, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | .hbm, ⟨43, _⟩ => ⟨S_, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x40, .f32⟩
  | .hbm, ⟨50, _⟩ => ⟨S100000x40, .f32⟩
  | .hbm, ⟨51, _⟩ => ⟨S100000x40, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S100000x1, .f32⟩
  | .hbm, ⟨56, _⟩ => ⟨S100000x40, .f32⟩
  | .hbm, ⟨57, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v29 : Ref sig .tc := ⟨.hbm, 57, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000x128 : S_.BroadcastsInDim S100000x128 (![] : Fin 0 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run, with the result array named.

  The program is two kernel regions among two stretches of host operations. Its run is the launch over those four
  segments; at the end every unscoped buffer of every core holds the contents of the last boundary, the fold of the
  segments from the launch memory. Stated first for an arbitrary conclusion about the final memory that follows from
  that, then with the result array read at the last boundary beside the six argument arrays, which end as launched.
-/
import proofs.«175271_j45990509805904_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and any property of the final memory that holds
    once every unscoped buffer of every core is at the last boundary's contents holds at the end. -/
theorem run_to_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result array named: it ends at the last boundary's contents of its buffer, and the six argument
    arrays end as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_to_boundary m ρ (fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Boundary

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«175271_j45990509805904_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibDenseLayers.lean ====
/-
  Two dense layers with a rectifier between them, over the extended reals: the entry (p, q) of
  max(a · w1, 0) · w2 is the sum over k of max(sum over j of a (p, j) · w1 (j, k), 0) · w2 (k, q).

  Three readings of it. A vector unit computes it as two matrix-unit products of operands narrowed to bf16, each into
  a zero accumulator, with an entrywise maximum against a splat zero between them; narrowing changes nothing on exact
  values. The host computes it as two contractions with the maximum against a broadcast zero between them. And a band of
  consecutive rows of the result is the same function of that band of rows of a, which is what one row block of a
  row-tiled computation holds: a row of the result depends on the same row of a only.
-/
import proofs.«175271_j45990509805904_1_alg».proof.Proof.LibMatProd

noncomputable section

namespace Cert.DenseLayers

open Idealize.ShloMosaic Idealize.ShloMosaic.ValueIdx Cert.LibMatProd

/-- The rectifier, entry by entry: the larger of the entry and the value of the zero word. -/
def rectify {M N : ℕ} (h : FVec Ideal ⟨2, ![M, N]⟩ .f32) : FVec Ideal ⟨2, ![M, N]⟩ .f32 :=
  fun i => max (h i) (Ideal.ofBits .f32 0x00000000#32)

/-- max(a · w1, 0) · w2. -/
def twoLayer {M K H N : ℕ} (a : FVec Ideal ⟨2, ![M, K]⟩ .f32) (w1 : FVec Ideal ⟨2, ![K, H]⟩ .f32)
    (w2 : FVec Ideal ⟨2, ![H, N]⟩ .f32) : FVec Ideal ⟨2, ![M, N]⟩ .f32 :=
  matProd (rectify (matProd a w1)) w2

/-- The vector unit's form: the first operand through an identity re-lay, both products of operands narrowed to bf16 into
    zero accumulators, the maximum against a splat of the zero word between them. -/
theorem unit_form {M K H N : ℕ}
    (d1 : DotDims ⟨2, ![M, K]⟩ ⟨2, ![K, H]⟩ ⟨2, ![M, H]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (d2 : DotDims ⟨2, ![M, H]⟩ ⟨2, ![H, N]⟩ ⟨2, ![M, N]⟩)
    (b1 : d2.lhsContracting = [1]) (b2 : d2.rhsContracting = [0]) (b3 : d2.lhsNonContracting = [0])
    (b4 : d2.rhsNonContracting = [1]) (b5 : d2.lhsBatch = []) (b6 : d2.rhsBatch = [])
    (x0 : FVec Ideal ⟨2, ![M, K]⟩ .f32) (x1 : FVec Ideal ⟨2, ![K, H]⟩ .f32) (x2 : FVec Ideal ⟨2, ![H, N]⟩ .f32)
    (hb : FTy.bf16.bits < FTy.f32.bits) (hs : (⟨2, ![M, K]⟩ : Shape).ShapeCasts ⟨2, ![M, K]⟩) :
    matmul d2 none
        (truncf .bf16 (maximumf (matmul d1 none (truncf .bf16 (shapeCast ⟨2, ![M, K]⟩ x0 hs) hb) (truncf .bf16 x1 hb)
            (constant ⟨2, ![M, H]⟩ .f32 0x00000000#32))
          (broadcast ⟨2, ![M, H]⟩ (Scalar.ofBits (F := Ideal) .f32 0x00000000#32))) hb)
        (truncf .bf16 x2 hb) (constant ⟨2, ![M, N]⟩ .f32 0x00000000#32)
      = twoLayer x0 x1 x2 := by
  rw [shapeCast_self, matmul_eq d1 a1 a2 a3 a4 a5 a6 x0 x1 hb]
  exact matmul_eq d2 b1 b2 b3 b4 b5 b6 _ x2 hb

/-- A scalar broadcast to every entry reads, anywhere, the scalar. -/
theorem splat_apply {s : Shape} (x : (⟨0, ![]⟩ : Shape).Idx → EReal) (h : (⟨0, ![]⟩ : Shape).BroadcastsInDim s ![])
    (i : s.Idx) : broadcastInDim s ![] h x i = x ix0 :=
  broadcastInDim_apply _ h x i ix0 (fun a => a.elim0)

/-- The host's form: two contractions, the maximum against the broadcast zero word between them. -/
theorem host_form {M K H N : ℕ}
    (d1 : DotDims ⟨2, ![M, K]⟩ ⟨2, ![K, H]⟩ ⟨2, ![M, H]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (d2 : DotDims ⟨2, ![M, H]⟩ ⟨2, ![H, N]⟩ ⟨2, ![M, N]⟩)
    (b1 : d2.lhsContracting = [1]) (b2 : d2.rhsContracting = [0]) (b3 : d2.lhsNonContracting = [0])
    (b4 : d2.rhsNonContracting = [1]) (b5 : d2.lhsBatch = []) (b6 : d2.rhsBatch = [])
    (a : FVec Ideal ⟨2, ![M, K]⟩ .f32) (w1 : FVec Ideal ⟨2, ![K, H]⟩ .f32) (w2 : FVec Ideal ⟨2, ![H, N]⟩ .f32)
    (hz : (⟨0, ![]⟩ : Shape).BroadcastsInDim ⟨2, ![M, H]⟩ ![]) :
    Host.dotGeneral (F := Ideal) d2 none
        (maximumf (Host.dotGeneral (F := Ideal) d1 none a w1)
          (broadcastInDim ⟨2, ![M, H]⟩ ![] hz (constant (F := Ideal) ⟨0, ![]⟩ .f32 0x00000000#32))) w2
      = twoLayer a w1 w2 := by
  rw [host_dot_eq d1 a1 a2 a3 a4 a5 a6 a w1, host_dot_eq d2 b1 b2 b3 b4 b5 b6]
  refine congrArg (fun z => matProd z w2) (funext fun i => ?_)
  rw [maximumf_apply, splat_apply]
  rfl

/-- Rows r, …, r + T − 1 of the result: when x holds those rows of A, and the weights are the same, the entry of the
    block's result at y is the entry of the whole result at the index whose row is r plus y's row and whose column is y's. -/
theorem twoLayer_rows {M K H N T : ℕ} (A : FVec Ideal ⟨2, ![M, K]⟩ .f32) (W1 : FVec Ideal ⟨2, ![K, H]⟩ .f32)
    (W2 : FVec Ideal ⟨2, ![H, N]⟩ .f32) (x : FVec Ideal ⟨2, ![T, K]⟩ .f32) (w1 : FVec Ideal ⟨2, ![K, H]⟩ .f32)
    (w2 : FVec Ideal ⟨2, ![H, N]⟩ .f32) (r : ℕ)
    (hx : ∀ (p : Fin T) (k : Fin K) (hp : r + p.val < M), x (ix2 p k) = A (ix2 ⟨r + p.val, hp⟩ k))
    (hw1 : ∀ z, w1 z = W1 z) (hw2 : ∀ z, w2 z = W2 z)
    (y : (⟨2, ![T, N]⟩ : Shape).Idx) (i : (⟨2, ![M, N]⟩ : Shape).Idx)
    (hi0 : (i 0).val = r + (y 0).val) (hi1 : (i 1).val = (y 1).val) :
    twoLayer x w1 w2 y = twoLayer A W1 W2 i :=
  matProd_rows (rectify (matProd A W1)) W2 (rectify (matProd x w1)) w2 r
    (fun p k hp => congrArg (fun z => max z (Ideal.ofBits .f32 0x00000000#32))
      (matProd_rows A W1 x w1 r hx hw1 (ix2 p k) (ix2 ⟨r + p.val, hp⟩ k) rfl rfl))
    hw2 y i hi0 hi1

end Cert.DenseLayers

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibRowLogSoftmax.lean ====
/-
  The logarithm of the softmax along the rows of a matrix, over the extended reals: with m the largest entry of row p
  (the fold of max over the row, from the word of minus infinity), the entry (p, q) is
  (v (p, q) - m) - log (sum over k of exp (v (p, k) - m)).

  Three readings of it. A vector unit reduces each row to its maximum and to its sum, re-lays each of the two vectors as
  one column and spreads the column along the rows. The host reduces with the same two bodies, takes one more maximum
  against minus infinity (which changes nothing: the fold already starts there), starts its sum from the zero word (which
  adds nothing), and broadcasts in two steps. And a band of consecutive rows of the result is the same function of that
  band of rows of v: a row of the result depends on the same row of v only.
-/
import proofs.«175271_j45990509805904_1_alg».proof.Proof.LibKeepdims
import proofs.«175271_j45990509805904_1_alg».proof.Proof.LibColumn

noncomputable section

namespace Cert.RowLogSoftmax

open Idealize.ShloMosaic Idealize.ShloMosaic.ValueIdx

/-- The largest entry of row p: the fold of max over the row, from the value of the word of minus infinity. -/
def rowMax {M N : ℕ} (v : FVec Ideal ⟨2, ![M, N]⟩ .f32) (p : Fin M) : EReal :=
  (Finset.univ : Finset (Fin N)).fold max (Ideal.ofBits .f32 0xFF800000#32) (fun k : Fin N => v (ix2 p k))

/-- (v (p, q) - m) - log (sum over k of exp (v (p, k) - m)), m the largest entry of row p. -/
def logSoftmax {M N : ℕ} (v : FVec Ideal ⟨2, ![M, N]⟩ .f32) : FVec Ideal ⟨2, ![M, N]⟩ .f32 :=
  fun i => (v i - rowMax v (i 0)) - Ideal.log (∑ k : Fin N, Ideal.exp (v (ix2 (i 0) k) - rowMax v (i 0)))

theorem logSoftmax_apply {M N : ℕ} (v : FVec Ideal ⟨2, ![M, N]⟩ .f32) (p : Fin M) (q : Fin N) :
    logSoftmax v (ix2 p q)
      = (v (ix2 p q) - rowMax v p) - Ideal.log (∑ k : Fin N, Ideal.exp (v (ix2 p k) - rowMax v p)) := rfl

/-! ## The vector unit's form -/

/-- A vector re-laid as one column and spread along the rows reads, at (p, q), the vector at p. -/
theorem column_spread {T N : ℕ} (u : FVec Ideal ⟨1, ![T]⟩ .f32) (hc : (⟨1, ![T]⟩ : Shape).ShapeCasts ⟨2, ![T, 1]⟩)
    (hb : (⟨2, ![T, 1]⟩ : Shape).Broadcasts ⟨2, ![T, N]⟩) (p : Fin T) (q : Fin N) :
    broadcastTo ⟨2, ![T, N]⟩ (shapeCast ⟨2, ![T, 1]⟩ u hc) hb (ix2 p q) = u (ix1 p) :=
  (Cert.LibColumn.broadcastTo_a1_ab_apply _ hb p q).trans (Cert.LibColumn.shapeCast_a_a1_apply u hc p 0)

/-- Each entry less its row's maximum, the maximum taken by a lane reduction and spread back as a column. -/
theorem unit_shift {T N : ℕ} (x0 : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hc : (⟨1, ![T]⟩ : Shape).ShapeCasts ⟨2, ![T, 1]⟩) (hb : (⟨2, ![T, 1]⟩ : Shape).Broadcasts ⟨2, ![T, N]⟩)
    (p : Fin T) (k : Fin N) :
    subf x0 (broadcastTo ⟨2, ![T, N]⟩ (shapeCast ⟨2, ![T, 1]⟩
        (multiReduction .maximumf [1] ⟨1, ![T]⟩ x0 0xFF800000#32 hr hφ hmax) hc) hb) (ix2 p k)
      = x0 (ix2 p k) - rowMax x0 p := by
  rw [subf_apply, column_spread]
  exact congrArg (x0 (ix2 p k) - ·) (Cert.LibKeepdims.max_last2_apply x0 _ hr hφ hmax p)

/-- The vector unit's form: the operand through an identity re-lay; the row maximum and the row sum by lane reductions,
    each re-laid as a column and spread along the rows; the logarithm taken on the column. -/
theorem unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf (shapeCast ⟨2, ![T, N]⟩ x0 hs) (broadcastTo ⟨2, ![T, N]⟩ (shapeCast ⟨2, ![T, 1]⟩
          (multiReduction .maximumf [1] ⟨1, ![T]⟩ (shapeCast ⟨2, ![T, N]⟩ x0 hs) 0xFF800000#32 hr hφ hmax) hc) hb))
        (broadcastTo ⟨2, ![T, N]⟩ (log (shapeCast ⟨2, ![T, 1]⟩
          (multiReduction .add [1] ⟨1, ![T]⟩
            (exp (subf (shapeCast ⟨2, ![T, N]⟩ x0 hs) (broadcastTo ⟨2, ![T, N]⟩ (shapeCast ⟨2, ![T, 1]⟩
              (multiReduction .maximumf [1] ⟨1, ![T]⟩ (shapeCast ⟨2, ![T, N]⟩ x0 hs) 0xFF800000#32 hr hφ hmax) hc) hb)))
            0x00000000#32 hr hφ hadd) hc)) hb)
      = logSoftmax x0 := by
  rw [shapeCast_self]
  funext j
  obtain ⟨p, q, rfl⟩ : ∃ (p : Fin T) (q : Fin N), j = ix2 p q := ⟨j 0, j 1, eq_ix2 j⟩
  rw [logSoftmax_apply, subf_apply, unit_shift x0 hr hφ hmax hc hb p q, Cert.LibColumn.broadcastTo_a1_ab_apply]
  refine congrArg (fun z => x0 (ix2 p q) - rowMax x0 p - z) ?_
  rw [Cert.LibKeepdims.log_apply, Cert.LibColumn.shapeCast_a_a1_apply, Cert.LibKeepdims.sum_last2_apply]
  refine congrArg Ideal.log (Finset.sum_congr rfl fun k _ => ?_)
  rw [Cert.LibKeepdims.exp_apply, unit_shift x0 hr hφ hmax hc hb p k]

/-! ## The host's form -/

/-- A scalar broadcast to every entry reads, anywhere, the scalar. -/
theorem splat_apply {s : Shape} (x : (⟨0, ![]⟩ : Shape).Idx → EReal) (h : (⟨0, ![]⟩ : Shape).BroadcastsInDim s ![])
    (i : s.Idx) : broadcastInDim s ![] h x i = x ix0 :=
  broadcastInDim_apply _ h x i ix0 (fun a => a.elim0)

/-- A vector broadcast to one column reads, at (p, u), the vector at p. -/
theorem column_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- One column broadcast along the rows reads, at (p, c), the column at p. -/
theorem spread_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- The host's logarithm and exponential, at an index. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The host's row maximum, and one more maximum against minus infinity, is the row's maximum: the fold starts at the
    value it is compared with once more. -/
theorem host_rowMax {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![]) (p : Fin M) :
    maximumf (broadcastInDim ⟨1, ![M]⟩ ![] hS (constant (F := Ideal) ⟨0, ![]⟩ .f32 0xFF800000#32))
        (Host.reduce (FloatOps.maximumf (F := Ideal) (φ := .f32)) v (constant (F := Ideal) ⟨0, ![]⟩ .f32 0xFF800000#32) hrt hu)
        (ix1 p)
      = rowMax v p := by
  have hf : (v ∘ hr.lift (ix1 p)) = fun k : Fin N => v (ix2 p k) :=
    funext fun k => congrArg v (Cert.LibKeepdims.lift_last2 hr p k)
  rw [maximumf_apply, splat_apply]
  refine (congrArg (max (Ideal.ofBits .f32 0xFF800000#32))
    ((Host.reduce_eq_fold_single (FloatOps.maximumf (F := Ideal) (φ := .f32)) v _ hrt hr hu (ix1 p)).trans
      (congrArg (fun f => Finset.fold max (Ideal.ofBits .f32 0xFF800000#32) f (Finset.univ : Finset (Fin N))) hf))).trans ?_
  exact max_eq_right ((Finset.le_fold_max _).mpr (Or.inl le_rfl))

/-- The host's row sum from the zero word is the row's sum. -/
theorem host_rowSum {M N : ℕ} (x : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel) (p : Fin M) :
    Host.reduceAdd (F := Ideal) x (constant (F := Ideal) ⟨0, ![]⟩ .f32 0x00000000#32) hrt hu (ix1 p)
      = ∑ k : Fin N, x (ix2 p k) := by
  simp only [Host.reduceAdd, Ideal.hostReduceAdd_def]
  rw [Ideal.hostReduceAdd_single hrt hr, constant_apply, Ideal.ofBits_zero_f32, zero_add]
  exact Finset.sum_congr rfl fun k _ => congrArg x (Cert.LibKeepdims.lift_last2 hr p k)

/-- Each entry less its row's maximum, in the host's form. -/
theorem host_shift {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) (p : Fin M) (k : Fin N) :
    subf v (broadcastInDim ⟨2, ![M, N]⟩ ![0, 1] h01 (broadcastInDim ⟨2, ![M, 1]⟩ ![0] h0
        (maximumf (broadcastInDim ⟨1, ![M]⟩ ![] hS (constant (F := Ideal) ⟨0, ![]⟩ .f32 0xFF800000#32))
          (Host.reduce (FloatOps.maximumf (F := Ideal) (φ := .f32)) v (constant (F := Ideal) ⟨0, ![]⟩ .f32 0xFF800000#32) hrt hu))))
        (ix2 p k)
      = v (ix2 p k) - rowMax v p := by
  rw [subf_apply, spread_apply, column_apply, host_rowMax v hrt hr hu hS p]

/-- The host's form of the whole function. -/
theorem host_form {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) :
    subf (subf v (broadcastInDim ⟨2, ![M, N]⟩ ![0, 1] h01 (broadcastInDim ⟨2, ![M, 1]⟩ ![0] h0
          (maximumf (broadcastInDim ⟨1, ![M]⟩ ![] hS (constant (F := Ideal) ⟨0, ![]⟩ .f32 0xFF800000#32))
            (Host.reduce (FloatOps.maximumf (F := Ideal) (φ := .f32)) v (constant (F := Ideal) ⟨0, ![]⟩ .f32 0xFF800000#32) hrt hu)))))
        (broadcastInDim ⟨2, ![M, N]⟩ ![0, 1] h01 (Host.log (F := Ideal) (broadcastInDim ⟨2, ![M, 1]⟩ ![0] h0
          (Host.reduceAdd (F := Ideal)
            (Host.exp (F := Ideal) (subf v (broadcastInDim ⟨2, ![M, N]⟩ ![0, 1] h01 (broadcastInDim ⟨2, ![M, 1]⟩ ![0] h0
              (maximumf (broadcastInDim ⟨1, ![M]⟩ ![] hS (constant (F := Ideal) ⟨0, ![]⟩ .f32 0xFF800000#32))
                (Host.reduce (FloatOps.maximumf (F := Ideal) (φ := .f32)) v (constant (F := Ideal) ⟨0, ![]⟩ .f32 0xFF800000#32) hrt hu))))))
            (constant (F := Ideal) ⟨0, ![]⟩ .f32 0x00000000#32) hrt hu))))
      = logSoftmax v := by
  funext j
  obtain ⟨p, q, rfl⟩ : ∃ (p : Fin M) (q : Fin N), j = ix2 p q := ⟨j 0, j 1, eq_ix2 j⟩
  rw [logSoftmax_apply, subf_apply, host_shift v hrt hr hu hS h0 h01 p q, spread_apply]
  refine congrArg (fun z => v (ix2 p q) - rowMax v p - z) ?_
  rw [hostLog_apply, column_apply, host_rowSum _ hrt hr hu p]
  refine congrArg Ideal.log (Finset.sum_congr rfl fun k _ => ?_)
  rw [hostExp_apply, host_shift v hrt hr hu hS h0 h01 p k]

/-! ## A band of rows -/

/-- Rows r, …, r + T − 1 of the result: when x holds those rows of V, the entry of the block's result at y is the entry of
    the whole result at the index whose row is r plus y's row and whose column is y's. -/
theorem logSoftmax_rows {M N T : ℕ} (V : FVec Ideal ⟨2, ![M, N]⟩ .f32) (x : FVec Ideal ⟨2, ![T, N]⟩ .f32) (r : ℕ)
    (hx : ∀ (p : Fin T) (k : Fin N) (hp : r + p.val < M), x (ix2 p k) = V (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    logSoftmax x y = logSoftmax V i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  have hrow : ∀ k : Fin N, x (ix2 p k) = V (ix2 p' k) := fun k => by rw [hx p k (h0 ▸ p'.isLt), ← hp']
  have hm : rowMax x p = rowMax V p' :=
    congrArg (fun f => Finset.fold max (Ideal.ofBits .f32 0xFF800000#32) f (Finset.univ : Finset (Fin N))) (funext hrow)
  rw [logSoftmax_apply, logSoftmax_apply, hm]
  simp only [hrow]

end Cert.RowLogSoftmax

end
-- ==== Proof.KernelBlocks.lean ====
/-
  What each of the two kernel regions leaves in its output array, as one function of the arrays the region finds.

  Both regions walk twenty row blocks of 5000 rows. In the first, a point's block of the output is two dense layers with
  a rectifier between them applied to the point's 5000 rows of the input and to the two weight matrices, which every
  point reads whole; a row of that function depends on the same row of the input only, so the block is the same rows of
  the function of the whole input. In the second, a point's block is the logarithm of the row softmax of the point's 5000
  rows, again a function of each row by itself. The twenty blocks tile the output, so the array ends at the function of
  the whole input.
-/
import proofs.«175271_j45990509805904_1_alg».proof.Proof.Gen.KernelIdeal.Frame
import proofs.«175271_j45990509805904_1_alg».proof.Proof.LibDenseLayers
import proofs.«175271_j45990509805904_1_alg».proof.Proof.LibRowLogSoftmax
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayers Cert.RowLogSoftmax

variable (V : (c : Dev nD) → (b : Ref sig .tc) → Buf (Elt Ideal) ((c : Thread nD τ).loc b))

theorem zero_offsets : (![0, 0] : Fin 2 → Nat) = fun _ => 0 := funext fun a => by fin_cases a <;> rfl

/-! ## The first region: two dense layers, row block by row block -/

/-- The body's arithmetic is the two layers of its three loaded blocks. -/
theorem dense_payload (x0 : Vec Ideal S5000x64 .f32) (x1 : Vec Ideal S64x128 .f32) (x2 : Vec Ideal S128x40 .f32) :
    k0_pay1 x0 x1 x2 = twoLayer (M := 5000) (K := 64) (H := 128) (N := 40) x0 x1 x2 := by
  unfold k0_pay1
  exact Cert.DenseLayers.unit_form dot_S5000x64_S64x128_S5000x128_1_0_0_1_n_n rfl rfl rfl rfl rfl rfl
    dot_S5000x128_S128x40_S5000x40_1_0_0_1_n_n rfl rfl rfl rfl rfl rfl x0 x1 x2 _ _

/-- The block indices over the grid: the input and the output move down one row block per point, the weights stay. -/
theorem dense_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point t is rows 5000 t, …, 5000 t + 4999 of the input array. -/
theorem dense_rows (c : Dev nD) (t : Fin cfg0.N) (p : Fin 5000) (k : Fin 64) (hp : t.val * 5000 + p.val < 100000) :
    (iblk0 V c 0 t : Vec Ideal S5000x64 .f32) (ix2 p k)
      = (V c main_v12 : S100000x64.Idx → Elt Ideal .f32) (ix2 ⟨t.val * 5000 + p.val, hp⟩ k) := by
  obtain ⟨e0, e1, -⟩ := dense_index t
  unfold iblk0
  rw [View.read_apply]
  show V c main_v12 _ = V c main_v12 _
  refine congrArg (V c main_v12) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The first weight block at any point is the whole first weight matrix. -/
theorem dense_w1 (c : Dev nD) (t : Fin cfg0.N) (z : S64x128.Idx) :
    (iblk0 V c 1 t : Vec Ideal S64x128 .f32) z = (V c main_arg1 : S64x128.Idx → Elt Ideal .f32) z := by
  obtain ⟨-, -, e0, e1, -⟩ := dense_index t
  unfold iblk0
  rw [View.read_apply]
  show V c main_arg1 _ = V c main_arg1 _
  refine congrArg (V c main_arg1) (funext fun a => Fin.ext ?_)
  match a with
  | ⟨0, _⟩ => show win0_1.index t (0 : Fin 2) * 64 + 1 * (z 0).val = (z 0).val; rw [e0]; omega
  | ⟨1, _⟩ => show win0_1.index t (1 : Fin 2) * 128 + 1 * (z 1).val = (z 1).val; rw [e1]; omega

/-- The second weight block at any point is the whole second weight matrix. -/
theorem dense_w2 (c : Dev nD) (t : Fin cfg0.N) (z : S128x40.Idx) :
    (iblk0 V c 2 t : Vec Ideal S128x40 .f32) z = (V c main_arg2 : S128x40.Idx → Elt Ideal .f32) z := by
  obtain ⟨-, -, -, -, e0, e1, -⟩ := dense_index t
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * (z 0).val = (z 0).val; rw [e0]; omega
  | ⟨1, _⟩ => show win0_2.index t (1 : Fin 2) * 40 + 1 * (z 1).val = (z 1).val; rw [e1]; omega

/-- The two layers of the arrays the first region finds. -/
def denseOf (c : Dev nD) : S100000x40.Idx → Elt Ideal .f32 :=
  twoLayer (M := 100000) (K := 64) (H := 128) (N := 40) (V c main_v12 : S100000x64.Idx → Elt Ideal .f32)
    (V c main_arg1 : S64x128.Idx → Elt Ideal .f32) (V c main_arg2 : S128x40.Idx → Elt Ideal .f32)

/-- What point t writes back is block t of the two layers of the whole input. -/
theorem dense_flushed (c : Dev nD) (t : Fin cfg0.N) :
    (dat0 V c).flushed 3 t = ((cfg0.win 3).blk t).view.read (Elt Ideal) (denseOf V c) := by
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x128) zero_offsets,
    View.ld_unit_zero (S := S128x40) zero_offsets]
  rw [dense_payload]
  obtain ⟨-, -, -, -, -, -, e0, e1⟩ := dense_index t
  funext y
  show twoLayer (M := 5000) (K := 64) (H := 128) (N := 40) (iblk0 V c 0 t) (iblk0 V c 1 t) (iblk0 V c 2 t) y
    = denseOf V c (((cfg0.win 3).blk t).view.emb y)
  refine twoLayer_rows (M := 100000) (K := 64) (H := 128) (N := 40) (T := 5000) _ _ _ _ _ _ (t.val * 5000)
    (dense_rows V c t) (dense_w1 V c t) (dense_w2 V c t) y _ ?_ ?_
  · show win0_3.index t (0 : Fin 2) * 5000 + 1 * (y 0).val = t.val * 5000 + (y 0).val
    rw [e0]; omega
  · show win0_3.index t (1 : Fin 2) * 40 + 1 * (y 1).val = (y 1).val
    rw [e1]; omega

/-- An index of the output is in point t's block iff each coordinate is in the block's range on its axis. -/
theorem dense_mem (t : Fin cfg0.N) (i : S100000x40.Idx) :
    i ∈ ((cfg0.win 3).blk t).view.set ↔ ∀ a : Fin 2, win0_3.index t a * S5000x40.size a ≤ (i a).val
      ∧ (i a).val < win0_3.index t a * S5000x40.size a + S5000x40.size a := by
  show i ∈ ((View.whole main_v13).slice (win0_3.rect t)).set ↔ _
  rw [View.set_slice_whole, Rect.mem_set_unit]
  exact Iff.rfl

/-- Every index of the output is in the block of the point that holds its row: row r is in block r / 5000. -/
theorem dense_cover (i : S100000x40.Idx) :
    ∃ t : Fin cfg0.N, (cfg0.win 3).flush t = true ∧ i ∈ ((cfg0.win 3).blk t).view.set := by
  have hi0 : (i 0).val < 100000 := (i 0).isLt
  have hi1 : (i 1).val < 40 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, e0, e1⟩ := dense_index t
  refine ⟨t, flush0_3 t, ?_⟩
  rw [dense_mem]
  intro a
  match a with
  | ⟨0, _⟩ =>
    show win0_3.index t (0 : Fin 2) * 5000 ≤ (i 0).val ∧ (i 0).val < win0_3.index t (0 : Fin 2) * 5000 + 5000
    rw [e0]; omega
  | ⟨1, _⟩ =>
    show win0_3.index t (1 : Fin 2) * 40 ≤ (i 1).val ∧ (i 1).val < win0_3.index t (1 : Fin 2) * 40 + 40
    rw [e1]; omega

/-- The first region's output array ends at the two layers of the arrays the region finds. -/
theorem dense_final (c : Dev nD) : (dat0 V c).arrAt 3 cfg0.N = denseOf V c :=
  (dat0 V c).arrAt_eq_of_cover 3 (denseOf V c) (fun t _ => dense_flushed V c t) dense_cover

/-! ## The second region: the logarithm of the row softmax, row block by row block -/

/-- The body's arithmetic is the logarithm of the row softmax of its loaded block. -/
theorem softmax_payload (x0 : Vec Ideal S5000x40 .f32) :
    k1_pay1 x0 = logSoftmax (M := 5000) (N := 40) x0 := by
  unfold k1_pay1
  exact Cert.RowLogSoftmax.unit_form x0 _ _ (.inl rfl) rfl rfl _ _

/-- The block indices over the grid: the input and the output move down one row block per point. -/
theorem softmax_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point t is rows 5000 t, …, 5000 t + 4999 of the input array. -/
theorem softmax_rows (c : Dev nD) (t : Fin cfg1.N) (p : Fin 5000) (k : Fin 40) (hp : t.val * 5000 + p.val < 100000) :
    (iblk1 V c 0 t : Vec Ideal S5000x40 .f32) (ix2 p k)
      = (V c main_v26 : S100000x40.Idx → Elt Ideal .f32) (ix2 ⟨t.val * 5000 + p.val, hp⟩ k) := by
  obtain ⟨e0, e1, -⟩ := softmax_index t
  unfold iblk1
  rw [View.read_apply]
  show V c main_v26 _ = V c main_v26 _
  refine congrArg (V c main_v26) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 40 + 1 * k.val = k.val; rw [e1]; omega

/-- The logarithm of the row softmax of the array the second region finds. -/
def softmaxOf (c : Dev nD) : S100000x40.Idx → Elt Ideal .f32 :=
  logSoftmax (M := 100000) (N := 40) (V c main_v26 : S100000x40.Idx → Elt Ideal .f32)

/-- What point t writes back is block t of the logarithm of the row softmax of the whole input. -/
theorem softmax_flushed (c : Dev nD) (t : Fin cfg1.N) :
    (dat1 V c).flushed 1 t = ((cfg1.win 1).blk t).view.read (Elt Ideal) (softmaxOf V c) := by
  show (cfg1.win 1).cut (grid1.coords t) ((dat1 V c).after 1 t) = _
  rw [after1_1]
  unfold out1_1
  rw [View.canon_unit_zero zero_offsets]
  simp only [View.ld_unit_zero (S := S5000x40) zero_offsets]
  rw [softmax_payload]
  obtain ⟨-, -, e0, e1⟩ := softmax_index t
  funext y
  show logSoftmax (M := 5000) (N := 40) (iblk1 V c 0 t) y = softmaxOf V c (((cfg1.win 1).blk t).view.emb y)
  refine logSoftmax_rows (M := 100000) (N := 40) (T := 5000) _ _ (t.val * 5000) (softmax_rows V c t) y _ ?_ ?_
  · show win1_1.index t (0 : Fin 2) * 5000 + 1 * (y 0).val = t.val * 5000 + (y 0).val
    rw [e0]; omega
  · show win1_1.index t (1 : Fin 2) * 40 + 1 * (y 1).val = (y 1).val
    rw [e1]; omega

/-- An index of the output is in point t's block iff each coordinate is in the block's range on its axis. -/
theorem softmax_mem (t : Fin cfg1.N) (i : S100000x40.Idx) :
    i ∈ ((cfg1.win 1).blk t).view.set ↔ ∀ a : Fin 2, win1_1.index t a * S5000x40.size a ≤ (i a).val
      ∧ (i a).val < win1_1.index t a * S5000x40.size a + S5000x40.size a := by
  show i ∈ ((View.whole main_v27).slice (win1_1.rect t)).set ↔ _
  rw [View.set_slice_whole, Rect.mem_set_unit]
  exact Iff.rfl

/-- Every index of the output is in the block of the point that holds its row. -/
theorem softmax_cover (i : S100000x40.Idx) :
    ∃ t : Fin cfg1.N, (cfg1.win 1).flush t = true ∧ i ∈ ((cfg1.win 1).blk t).view.set := by
  have hi0 : (i 0).val < 100000 := (i 0).isLt
  have hi1 : (i 1).val < 40 := (i 1).isLt
  have hN : cfg1.N = 20 := N_1
  obtain ⟨t, ht⟩ : ∃ t : Fin cfg1.N, t.val = (i 0).val / 5000 := ⟨⟨(i 0).val / 5000, by omega⟩, rfl⟩
  obtain ⟨-, -, e0, e1⟩ := softmax_index t
  refine ⟨t, flush1_1 t, ?_⟩
  rw [softmax_mem]
  intro a
  match a with
  | ⟨0, _⟩ =>
    show win1_1.index t (0 : Fin 2) * 5000 ≤ (i 0).val ∧ (i 0).val < win1_1.index t (0 : Fin 2) * 5000 + 5000
    rw [e0]; omega
  | ⟨1, _⟩ =>
    show win1_1.index t (1 : Fin 2) * 40 ≤ (i 1).val ∧ (i 1).val < win1_1.index t (1 : Fin 2) * 40 + 40
    rw [e1]; omega

/-- The second region's output array ends at the logarithm of the row softmax of the array the region finds. -/
theorem softmax_final (c : Dev nD) : (dat1 V c).arrAt 1 cfg1.N = softmaxOf V c :=
  (dat1 V c).arrAt_eq_of_cover 1 (softmaxOf V c) (fun t _ => softmax_flushed V c t) softmax_cover

end Cert.KernelIdeal.Blocks

end
-- ==== Proof.KernelValue.lean ====
/-
  The idealized kernel's result as one function of its six arguments.

  The program aggregates the node features over the edges, applies two dense layers with a rectifier between them (the
  first kernel region), aggregates again (40 features wide), and takes the logarithm of the row softmax (the second
  region). The contents at the four boundaries compose: the result array at the last boundary is the second region's
  function of what the second host stretch leaves, which is the aggregation of what the first region leaves, which is the
  first region's function of what the first host stretch leaves, the aggregation of the launch contents. The arrays a
  later segment reads that no earlier segment writes hold their launch contents.
-/
import proofs.«175271_j45990509805904_1_alg».proof.Proof.KernelRun
import proofs.«175271_j45990509805904_1_alg».proof.Proof.KernelBlocks

set_option maxRecDepth 16384

noncomputable section

namespace Cert.KernelIdeal.Result

open Cert.KernelIdeal Cert.KernelIdeal.Gen Cert.KernelIdeal.Blocks
open Idealize.ShloMosaic Idealize.ShloMosaic.TcCoe Idealize.ShloMosaic.ValueIdx Idealize.SL.Sem
open Idealize.ShloMosaic.StableHlo
open Cert.DenseLayers Cert.RowLogSoftmax

/-- One aggregation over the edges, 64 features wide: for every edge the source node's row (a negative source index
    counted from the end), scaled by the edge's weight, added into the destination node's row of a zero array. The host's
    gather, product and scatter-add; never opened. -/
def aggregate64 (x : (⟨S100000x64, .f32⟩ : BufTy).Contents (Elt Ideal)) (ew : (⟨S1600000, .f32⟩ : BufTy).Contents (Elt Ideal))
    (src dst : (⟨S1600000, .i32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 ew)))

/-- The same aggregation, 40 features wide. -/
def aggregate40 (x : (⟨S100000x40, .f32⟩ : BufTy).Contents (Elt Ideal)) (ew : (⟨S1600000, .f32⟩ : BufTy).Contents (Elt Ideal))
    (src dst : (⟨S1600000, .i32⟩ : BufTy).Contents (Elt Ideal)) : (⟨S100000x40, .f32⟩ : BufTy).Contents (Elt Ideal) :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (mulf (Host.gather gather_S100000x40_S1600000x1_S1600000x40_1_0_n_n_0_1_140 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1
        (broadcastInDim S1600000x1 ![0] bcast_S1600000_S1600000x1_0 ew)))

/-- The whole computation: aggregate, two dense layers, aggregate, logarithm of the row softmax. -/
def resultOf (x0 : (⟨S100000x64, .f32⟩ : BufTy).Contents (Elt Ideal)) (x1 : (⟨S64x128, .f32⟩ : BufTy).Contents (Elt Ideal))
    (x2 : (⟨S128x40, .f32⟩ : BufTy).Contents (Elt Ideal)) (x3 : (⟨S1600000, .f32⟩ : BufTy).Contents (Elt Ideal))
    (x4 x5 : (⟨S1600000, .i32⟩ : BufTy).Contents (Elt Ideal)) : (⟨S100000x40, .f32⟩ : BufTy).Contents (Elt Ideal) :=
  logSoftmax (M := 100000) (N := 40)
    (aggregate40 (twoLayer (M := 100000) (K := 64) (H := 128) (N := 40) (aggregate64 x0 x3 x4 x5) x1 x2) x3 x4 x5)

theorem twoLayer_congr {M K H N : ℕ} {a a' : FVec Ideal ⟨2, ![M, K]⟩ .f32} {w1 w1' : FVec Ideal ⟨2, ![K, H]⟩ .f32}
    {w2 w2' : FVec Ideal ⟨2, ![H, N]⟩ .f32} (h : a = a') (h1 : w1 = w1') (h2 : w2 = w2') :
    twoLayer a w1 w2 = twoLayer a' w1' w2' := by subst h h1 h2; rfl

theorem aggregate40_congr {x x' : (⟨S100000x40, .f32⟩ : BufTy).Contents (Elt Ideal)}
    {ew ew' : (⟨S1600000, .f32⟩ : BufTy).Contents (Elt Ideal)} {src src' dst dst' : (⟨S1600000, .i32⟩ : BufTy).Contents (Elt Ideal)}
    (h : x = x') (h3 : ew = ew') (h4 : src = src') (h5 : dst = dst') :
    aggregate40 x ew src dst = aggregate40 x' ew' src' dst' := by subst h h3 h4 h5; rfl

/-! ## The two host stretches, over any contents -/

/-- The first stretch leaves the 64-wide aggregation of the arguments in the first region's input. -/
theorem first_stretch (W : Valuation τ sig (Elt Ideal)) :
    after hostOps0 W (Proc.devRef .tc main_v12)
      = aggregate64 (W (Proc.devRef .tc main_arg0)) (W (Proc.devRef .tc main_arg3)) (W (Proc.devRef .tc main_arg4))
          (W (Proc.devRef .tc main_arg5)) := by
  after_results
  rfl

theorem first_keeps1 (W : Valuation τ sig (Elt Ideal)) :
    after hostOps0 W (Proc.devRef .tc main_arg1) = W (Proc.devRef .tc main_arg1) := by after_results
theorem first_keeps2 (W : Valuation τ sig (Elt Ideal)) :
    after hostOps0 W (Proc.devRef .tc main_arg2) = W (Proc.devRef .tc main_arg2) := by after_results
theorem first_keeps3 (W : Valuation τ sig (Elt Ideal)) :
    after hostOps0 W (Proc.devRef .tc main_arg3) = W (Proc.devRef .tc main_arg3) := by after_results
theorem first_keeps4 (W : Valuation τ sig (Elt Ideal)) :
    after hostOps0 W (Proc.devRef .tc main_arg4) = W (Proc.devRef .tc main_arg4) := by after_results
theorem first_keeps5 (W : Valuation τ sig (Elt Ideal)) :
    after hostOps0 W (Proc.devRef .tc main_arg5) = W (Proc.devRef .tc main_arg5) := by after_results

/-- The second stretch leaves the 40-wide aggregation of the first region's output in the second region's input. -/
theorem second_stretch (W : Valuation τ sig (Elt Ideal)) :
    after hostOps1 W (Proc.devRef .tc main_v26)
      = aggregate40 (W (Proc.devRef .tc main_v13)) (W (Proc.devRef .tc main_arg3)) (W (Proc.devRef .tc main_arg4))
          (W (Proc.devRef .tc main_arg5)) := by
  after_results
  rfl

/-! ## The contents at the boundaries -/

variable (m : (ℓ : Loc nD τ sig) → Buf (Elt Ideal) ℓ) (ρ : Dev nD → PrngReg)

/-- What the first region finds: the aggregation of the launch contents, and the two weight matrices as launched. -/
theorem entry_input (c : Dev nD) :
    V1 m ρ c main_v12 = aggregate64 (m ((c.tc : Thread nD τ).loc main_arg0)) (m ((c.tc : Thread nD τ).loc main_arg3)) (m ((c.tc : Thread nD τ).loc main_arg4)) (m ((c.tc : Thread nD τ).loc main_arg5)) :=
  first_stretch (W0 m ρ c)
theorem entry_w1 (c : Dev nD) : V1 m ρ c main_arg1 = (m ((c.tc : Thread nD τ).loc main_arg1)) := first_keeps1 (W0 m ρ c)
theorem entry_w2 (c : Dev nD) : V1 m ρ c main_arg2 = (m ((c.tc : Thread nD τ).loc main_arg2)) := first_keeps2 (W0 m ρ c)

/-- What the first region leaves in its output: the two layers of the aggregation. -/
theorem exit_dense (c : Dev nD) :
    W2 m ρ c (Proc.devRef .tc main_v13)
      = twoLayer (M := 100000) (K := 64) (H := 128) (N := 40)
          (aggregate64 (m ((c.tc : Thread nD τ).loc main_arg0)) (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg2)) := by
  refine (W2_arr m ρ c 3).trans ((dense_final (V1 m ρ) c).trans ?_)
  unfold denseOf
  exact twoLayer_congr (entry_input m ρ c) (entry_w1 m ρ c) (entry_w2 m ρ c)

/-- The edge arrays pass the first region untouched. -/
theorem exit_keeps3 (c : Dev nD) : W2 m ρ c (Proc.devRef .tc main_arg3) = (m ((c.tc : Thread nD τ).loc main_arg3)) :=
  (W2_of_ne m ρ c main_arg3 (by decide)).trans (first_keeps3 (W0 m ρ c))
theorem exit_keeps4 (c : Dev nD) : W2 m ρ c (Proc.devRef .tc main_arg4) = (m ((c.tc : Thread nD τ).loc main_arg4)) :=
  (W2_of_ne m ρ c main_arg4 (by decide)).trans (first_keeps4 (W0 m ρ c))
theorem exit_keeps5 (c : Dev nD) : W2 m ρ c (Proc.devRef .tc main_arg5) = (m ((c.tc : Thread nD τ).loc main_arg5)) :=
  (W2_of_ne m ρ c main_arg5 (by decide)).trans (first_keeps5 (W0 m ρ c))

/-- The result array at the last boundary is the whole computation of the launch contents of the six arguments. -/
theorem last_boundary (c : Dev nD) :
    W4 m ρ c (Proc.devRef .tc main_v27)
      = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W4_arr m ρ c 1).trans ((softmax_final (V3 m ρ) c).trans ?_)
  unfold softmaxOf resultOf
  refine congrArg (logSoftmax (M := 100000) (N := 40)) ?_
  exact (second_stretch (W2 m ρ c)).trans
    (aggregate40_congr (exit_dense m ρ c) (exit_keeps3 m ρ c) (exit_keeps4 m ρ c) (exit_keeps5 m ρ c))

/-! ## The run -/

/-- Every weakly fair execution of the idealized kernel terminates without a fault, with the result array at the whole
    computation of the six arguments' launch contents and the arguments unchanged. -/
theorem run : θ_run defs (onTc (τ := τ) (main (F := Ideal))) ⟨m, fun _ => 0, ρ⟩ (fun r => ∀ c : Dev nD,
      r.2.mem ((c.tc : Thread nD τ).loc main_v27)
        = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (last_boundary m ρ c), (h c).2⟩)
    (Cert.KernelIdeal.Boundary.run_result m ρ)

end Cert.KernelIdeal.Result

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.RefValue.lean ====
/-
  The idealized reference's result as one function of its six arguments.

  The reference is one line of 52 host operations, read in four consecutive stretches of it: the 64-wide aggregation of the node features over the
  edges (16 operations); the contraction with the first weight matrix, the maximum against zero, the contraction with the
  second (5); the 40-wide aggregation (16); and the logarithm of the row softmax in jax's spelling (15). Each stretch is read
  by itself, over any contents of the buffers it starts from, as one function of the few buffers it reads; the line's fold
  at the result buffer is the four readings composed. The arrays a later stretch reads that no earlier one writes hold their
  launch contents.
-/
import proofs.«175271_j45990509805904_1_alg».proof.Proof.RefRun
import proofs.«175271_j45990509805904_1_alg».proof.Proof.LibTypedRef
import proofs.«175271_j45990509805904_1_alg».proof.Proof.LibDenseLayers
import proofs.«175271_j45990509805904_1_alg».proof.Proof.LibRowLogSoftmax

set_option maxRecDepth 16384

noncomputable section

namespace Cert.ReferenceIdeal.Result

open Cert.ReferenceIdeal Cert.ReferenceIdeal.Gen Cert.ReferenceIdeal.ValueP
open Idealize.ShloMosaic Idealize.ShloMosaic.TcCoe Idealize.ShloMosaic.ValueIdx Idealize.SL.Sem
open Idealize.ShloMosaic.StableHlo
open Cert.DenseLayers Cert.RowLogSoftmax

/-- One aggregation over the edges, 64 features wide: for every edge the source node's row (a negative source index
    counted from the end), scaled by the edge's weight, added into the destination node's row of a zero array. The host's
    gather, product and scatter-add; never opened. -/
def aggregate64 (x : (⟨S100000x64, .f32⟩ : BufTy).Contents (Elt Ideal)) (ew : (⟨S1600000, .f32⟩ : BufTy).Contents (Elt Ideal))
    (src dst : (⟨S1600000, .i32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 ew)))

/-- The same aggregation, 40 features wide. -/
def aggregate40 (x : (⟨S100000x40, .f32⟩ : BufTy).Contents (Elt Ideal)) (ew : (⟨S1600000, .f32⟩ : BufTy).Contents (Elt Ideal))
    (src dst : (⟨S1600000, .i32⟩ : BufTy).Contents (Elt Ideal)) : (⟨S100000x40, .f32⟩ : BufTy).Contents (Elt Ideal) :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (mulf (Host.gather gather_S100000x40_S1600000x1_S1600000x40_1_0_n_n_0_1_140 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1
        (broadcastInDim S1600000x1 ![0] bcast_S1600000_S1600000x1_0 ew)))

/-- The whole computation: aggregate, two dense layers, aggregate, logarithm of the row softmax. -/
def resultOf (x0 : (⟨S100000x64, .f32⟩ : BufTy).Contents (Elt Ideal)) (x1 : (⟨S64x128, .f32⟩ : BufTy).Contents (Elt Ideal))
    (x2 : (⟨S128x40, .f32⟩ : BufTy).Contents (Elt Ideal)) (x3 : (⟨S1600000, .f32⟩ : BufTy).Contents (Elt Ideal))
    (x4 x5 : (⟨S1600000, .i32⟩ : BufTy).Contents (Elt Ideal)) : (⟨S100000x40, .f32⟩ : BufTy).Contents (Elt Ideal) :=
  logSoftmax (M := 100000) (N := 40)
    (aggregate40 (twoLayer (M := 100000) (K := 64) (H := 128) (N := 40) (aggregate64 x0 x3 x4 x5) x1 x2) x3 x4 x5)

theorem twoLayer_congr {M K H N : ℕ} {a a' : FVec Ideal ⟨2, ![M, K]⟩ .f32} {w1 w1' : FVec Ideal ⟨2, ![K, H]⟩ .f32}
    {w2 w2' : FVec Ideal ⟨2, ![H, N]⟩ .f32} (h : a = a') (h1 : w1 = w1') (h2 : w2 = w2') :
    twoLayer a w1 w2 = twoLayer a' w1' w2' := by subst h h1 h2; rfl

theorem aggregate40_congr {x x' : (⟨S100000x40, .f32⟩ : BufTy).Contents (Elt Ideal)}
    {ew ew' : (⟨S1600000, .f32⟩ : BufTy).Contents (Elt Ideal)} {src src' dst dst' : (⟨S1600000, .i32⟩ : BufTy).Contents (Elt Ideal)}
    (h : x = x') (h3 : ew = ew') (h4 : src = src') (h5 : dst = dst') :
    aggregate40 x ew src dst = aggregate40 x' ew' src' dst' := by subst h h3 h4 h5; rfl

/-! ## The line of operations in four stretches -/

variable {F : FTy → Type} [FloatOps F]

/-- The first aggregation: operations 1 to 16 of the line. -/
abbrev firstAggregation : List (HloOp τ sig (Elt F)) := (ops (F := F)).take 16

/-- The two contractions with the maximum against zero between them: operations 17 to 21. -/
abbrev contractions : List (HloOp τ sig (Elt F)) := ((ops (F := F)).drop 16).take 5

/-- The second aggregation: operations 22 to 37. -/
abbrev secondAggregation : List (HloOp τ sig (Elt F)) := ((ops (F := F)).drop 21).take 16

/-- The logarithm of the row softmax: operations 38 to 52. -/
abbrev rowSoftmax : List (HloOp τ sig (Elt F)) := (ops (F := F)).drop 37

set_option maxRecDepth 65536 in
/-- The line is its four stretches in order. -/
theorem ops_stretches : ops (F := F) = firstAggregation ++ (contractions ++ (secondAggregation ++ rowSoftmax)) := rfl

/-- The fold of a line in two parts is the second part's fold from the first part's. -/
theorem after_append {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append l₁ l₂]

/-! ## Each stretch, over any contents -/

/-- The first stretch leaves the 64-wide aggregation of the arguments in the first contraction's operand. -/
theorem first_result (W : Valuation τ sig (Elt Ideal)) :
    after (firstAggregation (F := Ideal)) W (Proc.devRef .tc main_v12)
      = aggregate64 (W (Proc.devRef .tc main_arg0)) (W (Proc.devRef .tc main_arg3)) (W (Proc.devRef .tc main_arg4))
          (W (Proc.devRef .tc main_arg5)) := by
  simp only [firstAggregation, contractions, secondAggregation, rowSoftmax, ops, List.take_succ_cons, List.take_zero,
    List.drop_succ_cons, List.drop_zero]
  after_results
  rfl

theorem first_keeps1 (W : Valuation τ sig (Elt Ideal)) :
    after (firstAggregation (F := Ideal)) W (Proc.devRef .tc main_arg1) = W (Proc.devRef .tc main_arg1) := by
  simp only [firstAggregation, contractions, secondAggregation, rowSoftmax, ops, List.take_succ_cons, List.take_zero,
    List.drop_succ_cons, List.drop_zero]
  after_results
theorem first_keeps2 (W : Valuation τ sig (Elt Ideal)) :
    after (firstAggregation (F := Ideal)) W (Proc.devRef .tc main_arg2) = W (Proc.devRef .tc main_arg2) := by
  simp only [firstAggregation, contractions, secondAggregation, rowSoftmax, ops, List.take_succ_cons, List.take_zero,
    List.drop_succ_cons, List.drop_zero]
  after_results
theorem first_keeps3 (W : Valuation τ sig (Elt Ideal)) :
    after (firstAggregation (F := Ideal)) W (Proc.devRef .tc main_arg3) = W (Proc.devRef .tc main_arg3) := by
  simp only [firstAggregation, contractions, secondAggregation, rowSoftmax, ops, List.take_succ_cons, List.take_zero,
    List.drop_succ_cons, List.drop_zero]
  after_results
theorem first_keeps4 (W : Valuation τ sig (Elt Ideal)) :
    after (firstAggregation (F := Ideal)) W (Proc.devRef .tc main_arg4) = W (Proc.devRef .tc main_arg4) := by
  simp only [firstAggregation, contractions, secondAggregation, rowSoftmax, ops, List.take_succ_cons, List.take_zero,
    List.drop_succ_cons, List.drop_zero]
  after_results
theorem first_keeps5 (W : Valuation τ sig (Elt Ideal)) :
    after (firstAggregation (F := Ideal)) W (Proc.devRef .tc main_arg5) = W (Proc.devRef .tc main_arg5) := by
  simp only [firstAggregation, contractions, secondAggregation, rowSoftmax, ops, List.take_succ_cons, List.take_zero,
    List.drop_succ_cons, List.drop_zero]
  after_results

/-- The second stretch leaves the two dense layers of its operand and the two weight matrices. -/
theorem contractions_result (W : Valuation τ sig (Elt Ideal)) :
    after (contractions (F := Ideal)) W (Proc.devRef .tc main_v15)
      = twoLayer (M := 100000) (K := 64) (H := 128) (N := 40) (W (Proc.devRef .tc main_v12)) (W (Proc.devRef .tc main_arg1))
          (W (Proc.devRef .tc main_arg2)) := by
  simp only [firstAggregation, contractions, secondAggregation, rowSoftmax, ops, List.take_succ_cons, List.take_zero,
    List.drop_succ_cons, List.drop_zero]
  after_results
  simp only [TRef.ofBuf, TRef.toBuf, cast_eq]
  exact Cert.DenseLayers.host_form dot_S100000x64_S64x128_S100000x128_1_0_0_1_n_n rfl rfl rfl rfl rfl rfl
    dot_S100000x128_S128x40_S100000x40_1_0_0_1_n_n rfl rfl rfl rfl rfl rfl _ _ _ bcast_S_S100000x128

theorem contractions_keeps3 (W : Valuation τ sig (Elt Ideal)) :
    after (contractions (F := Ideal)) W (Proc.devRef .tc main_arg3) = W (Proc.devRef .tc main_arg3) := by
  simp only [firstAggregation, contractions, secondAggregation, rowSoftmax, ops, List.take_succ_cons, List.take_zero,
    List.drop_succ_cons, List.drop_zero]
  after_results
theorem contractions_keeps4 (W : Valuation τ sig (Elt Ideal)) :
    after (contractions (F := Ideal)) W (Proc.devRef .tc main_arg4) = W (Proc.devRef .tc main_arg4) := by
  simp only [firstAggregation, contractions, secondAggregation, rowSoftmax, ops, List.take_succ_cons, List.take_zero,
    List.drop_succ_cons, List.drop_zero]
  after_results
theorem contractions_keeps5 (W : Valuation τ sig (Elt Ideal)) :
    after (contractions (F := Ideal)) W (Proc.devRef .tc main_arg5) = W (Proc.devRef .tc main_arg5) := by
  simp only [firstAggregation, contractions, secondAggregation, rowSoftmax, ops, List.take_succ_cons, List.take_zero,
    List.drop_succ_cons, List.drop_zero]
  after_results

/-- The third stretch leaves the 40-wide aggregation of the dense layers' result. -/
theorem second_result (W : Valuation τ sig (Elt Ideal)) :
    after (secondAggregation (F := Ideal)) W (Proc.devRef .tc main_v28)
      = aggregate40 (W (Proc.devRef .tc main_v15)) (W (Proc.devRef .tc main_arg3)) (W (Proc.devRef .tc main_arg4))
          (W (Proc.devRef .tc main_arg5)) := by
  simp only [firstAggregation, contractions, secondAggregation, rowSoftmax, ops, List.take_succ_cons, List.take_zero,
    List.drop_succ_cons, List.drop_zero]
  after_results
  rfl

/-- The last stretch leaves the logarithm of the row softmax of its operand. -/
theorem rowSoftmax_result (W : Valuation τ sig (Elt Ideal)) :
    after (rowSoftmax (F := Ideal)) W (Proc.devRef .tc main_v29)
      = logSoftmax (M := 100000) (N := 40) (W (Proc.devRef .tc main_v28)) := by
  simp only [firstAggregation, contractions, secondAggregation, rowSoftmax, ops, List.take_succ_cons, List.take_zero,
    List.drop_succ_cons, List.drop_zero]
  after_results_simp
  simp only [Cert.Lib.ofBuf_toBuf]
  have out_id : ∀ X : (⟨S100000x40, .f32⟩ : BufTy).Contents (Elt Ideal),
      (TRef.of (T := ⟨S100000x40, .f32⟩) main_v29).toBuf X = X := fun _ => rfl
  have in_id : ∀ X : (⟨S100000x40, .f32⟩ : BufTy).Contents (Elt Ideal),
      (TRef.of (T := ⟨S100000x40, .f32⟩) main_v28).ofBuf X = X := fun _ => rfl
  rw [out_id, in_id]
  exact Cert.RowLogSoftmax.host_form (M := 100000) (N := 40) _ reducesTo_S100000x40_S100000_d1 (by decide) h_S_
    bcast_S_S100000 bcast_S100000_S100000x1_0 bcast_S100000x1_S100000x40_0_1

/-! ## The line's fold at the result, and the run -/

/-- The fold of the reference's operations at the result buffer is the whole computation of the launch contents. -/
theorem fold_result (m : (ℓ : Loc nD τ sig) → Buf (Elt Ideal) ℓ) (c : Dev nD) :
    after (ops (F := Ideal)) (launchContents m c) (Proc.devRef .tc main_v29)
      = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_stretches, after_append, after_append, after_append, rowSoftmax_result]
  unfold resultOf
  refine congrArg (logSoftmax (M := 100000) (N := 40)) ?_
  rw [second_result]
  refine aggregate40_congr ?_ ?_ ?_ ?_
  · rw [contractions_result]
    exact twoLayer_congr (first_result _) (first_keeps1 _) (first_keeps2 _)
  · exact (contractions_keeps3 _).trans (first_keeps3 _)
  · exact (contractions_keeps4 _).trans (first_keeps4 _)
  · exact (contractions_keeps5 _).trans (first_keeps5 _)

/-- Every weakly fair execution of the idealized reference terminates without a fault, with the result array at the whole
    computation of the six arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29)
        = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (fold_result m c), (h c).2⟩)
    (Cert.ReferenceIdeal.ValueP.run (F := Ideal) m ρ)

end Cert.ReferenceIdeal.Result

end
-- ==== Proof.lean ====
/-
  A two-layer graph convolution ending in a logarithm of the row softmax: the kernel against its jnp reference, over the
  extended reals.

  Both programs compute, from node features x [100000, 64], weights W1 [64, 128] and W2 [128, 40], and 1600000 weighted
  edges, the array  logsoftmax_rows (A (max (A x · W1, 0) · W2)),  where A aggregates over the edges: each edge adds its
  source node's row, scaled by the edge's weight, into its destination node's row. The reference does everything on the
  host. The kernel does the two aggregations on the host with the same operations, the two dense layers in one kernel region
  (row blocks of 5000 rows, operands narrowed to bf16 on the way into the matrix unit, which is the identity on exact
  values) and the logarithm of the row softmax in a second region (the same row blocks). A row of the dense layers and a row
  of the softmax depend on the same row of their operand only, so the row blocks are the rows of the whole-array functions;
  the reference's extra maximum against minus infinity and its sum started from the zero word change nothing. No law used
  needs the inputs finite: both sides are the same function of the same operations on every extended real, so the
  precondition is never opened.

  The kernel's result: KernelRun (the run to the last boundary), KernelBlocks (what each region leaves), KernelValue (the
  boundaries composed). The reference's: RefRun (its operations and their fold), RefValue (the fold read). The two
  whole-array functions: LibDenseLayers, LibRowLogSoftmax. Nothing is rewritten between the word-level kernel and its
  idealization, so that conjunct is trivial; the three frames are the generated ones and the reference's run.
-/
import proofs.«175271_j45990509805904_1_alg».proof.Defs
import proofs.«175271_j45990509805904_1_alg».proof.Proof.Gen.Kernel
import proofs.«175271_j45990509805904_1_alg».proof.Proof.Gen.Kernel.Skeleton
import proofs.«175271_j45990509805904_1_alg».proof.Proof.Gen.Kernel.Launch
import proofs.«175271_j45990509805904_1_alg».proof.Proof.Gen.Kernel.Points
import proofs.«175271_j45990509805904_1_alg».proof.Proof.Gen.Kernel.Frame
import proofs.«175271_j45990509805904_1_alg».proof.Proof.Gen.KernelIdeal
import proofs.«175271_j45990509805904_1_alg».proof.Proof.Gen.KernelIdeal.Skeleton
import proofs.«175271_j45990509805904_1_alg».proof.Proof.Gen.KernelIdeal.Launch
import proofs.«175271_j45990509805904_1_alg».proof.Proof.Gen.KernelIdeal.Points
import proofs.«175271_j45990509805904_1_alg».proof.Proof.Gen.KernelIdeal.Frame
import proofs.«175271_j45990509805904_1_alg».proof.Proof.Gen.ReferenceIdeal
import proofs.«175271_j45990509805904_1_alg».proof.Proof.Gen.Pre_finite_inputs
import proofs.«175271_j45990509805904_1_alg».proof.Proof.KernelValue
import proofs.«175271_j45990509805904_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs' whole-array functions are one function -/

/-- The 64-wide aggregation is spelt with the same host operations in both programs. -/
theorem aggregate64_agree (x : (⟨Cert.KernelIdeal.S100000x64, .f32⟩ : BufTy).Contents (Elt Ideal))
    (ew : (⟨Cert.KernelIdeal.S1600000, .f32⟩ : BufTy).Contents (Elt Ideal))
    (src dst : (⟨Cert.KernelIdeal.S1600000, .i32⟩ : BufTy).Contents (Elt Ideal)) :
    Cert.ReferenceIdeal.Result.aggregate64 x ew src dst = Cert.KernelIdeal.Result.aggregate64 x ew src dst := rfl

/-- So is the 40-wide one. -/
theorem aggregate40_agree (x : (⟨Cert.KernelIdeal.S100000x40, .f32⟩ : BufTy).Contents (Elt Ideal))
    (ew : (⟨Cert.KernelIdeal.S1600000, .f32⟩ : BufTy).Contents (Elt Ideal))
    (src dst : (⟨Cert.KernelIdeal.S1600000, .i32⟩ : BufTy).Contents (Elt Ideal)) :
    Cert.ReferenceIdeal.Result.aggregate40 x ew src dst = Cert.KernelIdeal.Result.aggregate40 x ew src dst := rfl

/-- Hence the whole computations agree on every six arguments. -/
theorem result_agree (x0 : (⟨Cert.KernelIdeal.S100000x64, .f32⟩ : BufTy).Contents (Elt Ideal))
    (x1 : (⟨Cert.KernelIdeal.S64x128, .f32⟩ : BufTy).Contents (Elt Ideal))
    (x2 : (⟨Cert.KernelIdeal.S128x40, .f32⟩ : BufTy).Contents (Elt Ideal))
    (x3 : (⟨Cert.KernelIdeal.S1600000, .f32⟩ : BufTy).Contents (Elt Ideal))
    (x4 x5 : (⟨Cert.KernelIdeal.S1600000, .i32⟩ : BufTy).Contents (Elt Ideal)) :
    Cert.ReferenceIdeal.Result.resultOf x0 x1 x2 x3 x4 x5 = Cert.KernelIdeal.Result.resultOf x0 x1 x2 x3 x4 x5 := by
  unfold Cert.ReferenceIdeal.Result.resultOf Cert.KernelIdeal.Result.resultOf
  rw [aggregate64_agree, aggregate40_agree]

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments both programs end with their result arrays at the whole computation of those
    arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Result.run m' ρ')
  obtain ⟨e0, e1, e2, e3, e4, e5⟩ := hagree c
  rw [e0, e1, e2, e3, e4, e5]
  exact result_agree _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
